-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2 : Shape := ⟨2, ![2048, 2]⟩
abbrev S2 : Shape := ⟨1, ![2]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2 : S_.BroadcastsInDim S2048x2 (![] : Fin 0 → Fin S2048x2.rank)
  reducesTo_S2048x2_S_d0_1 : S2048x2.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S16384x2048 .f32) (main_arg1 : FVec F S2048x2 .f32) (main_arg2 : FVec F S2 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2 .f32 := Host.absf main_arg1
  let main_cst_0 : FVec F S_ .f32 := constant S_ .f32 0x7F800000#32
  let main_v5 : FVec F S2048x2 .f32 := broadcastInDim S2048x2 ![] bcast_S_S2048x2 main_cst_0
  let main_v6 : IVec S2048x2 1 := cmpf .olt main_v4 main_v5
  let main_c_1 : IVec S_ 1 := constantI S_ 1 1#1
  let main_v7 : IVec S_ 1 := (fun x v => Host.reduce IntOp.andi x v reducesTo_S2048x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S16384x2048 : Shape := ⟨2, ![16384, 2048]⟩
abbrev S2048x2 : Shape := ⟨2, ![2048, 2]⟩
abbrev S2 : Shape := ⟨1, ![2]⟩
abbrev S1x2 : Shape := ⟨2, ![1, 2]⟩
abbrev S512x2048 : Shape := ⟨2, ![512, 2048]⟩
abbrev S512x2 : Shape := ⟨2, ![512, 2]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048x2, .f32⟩
  | .hbm, ⟨2, _⟩ => ⟨S2, .f32⟩
  | .hbm, ⟨3, _⟩ => ⟨S1x2, .f32⟩
  | .hbm, ⟨4, _⟩ => ⟨S16384x2048, .f32⟩
  | .hbm, ⟨5, _⟩ => ⟨S16384x2048, .f32⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x2, .f32⟩
  | .local _ .vmem, ⟨3, _⟩ => ⟨S1x2, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2_S1x2 : S2.ShapeCasts S1x2
  inb_S512x2048_S512x2048_0_0 : ∀ a, (![0, 0] : Fin 2 → Nat) a + S512x2048.size a ≤ S512x2048.size a
  h_S512x2048 : 0 < S512x2048.numel
  inb_S2048x2_S2048x2_0_0 : ∀ a, (![0, 0] : Fin 2 → Nat) a + S2048x2.size a ≤ S2048x2.size a
  h_S2048x2 : 0 < S2048x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  slices_S512x2_o0_0_S512x1 : S512x2.Slices ![0, 0] S512x1
  slices_S512x2_o0_1_S512x1 : S512x2.Slices ![0, 1] S512x1
  broadcasts_S512x1_S512x2048 : S512x1.Broadcasts S512x2048
  dot_S512x2048_S2048x2_S512x2_1_0_0_1_n_n_wf : DotDims.WF S512x2048 S2048x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2.size a ≤ S2048x2.size a
  hwx0_1 : ∀ i : grid0.Coords, EltTy.bits .f32 = 32 ∨ (Rect.block (s := S2048x2) S2048x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S16384x2048.size a
  hwx0_5 : ∀ i : grid0.Coords, EltTy.bits .f32 = 32 ∨ (Rect.block (s := S16384x2048) S512x2048.size (cc0_transform_5 i) (hinb0_5 i)).WholeWords (EltTy.packing .f32)

variable [Facts₀]

def dot_S512x2048_S2048x2_S512x2_1_0_0_1_n_n : DotDims S512x2048 S2048x2 S512x2 where
  lhsContracting := [1]
  rhsContracting := [0]
  lhsNonContracting := [0]
  rhsNonContracting := [1]
  lhsBatch := []
  rhsBatch := []
  wf := dot_S512x2048_S2048x2_S512x2_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2 : Shape := ⟨2, ![2048, 2]⟩
abbrev S2 : Shape := ⟨1, ![2]⟩
abbrev S16384x2 : Shape := ⟨2, ![16384, 2]⟩
abbrev S1x2 : Shape := ⟨2, ![1, 2]⟩
abbrev S_ : Shape := ⟨0, ![]⟩
abbrev S16384x1 : Shape := ⟨2, ![16384, 1]⟩
abbrev S16384 : Shape := ⟨1, ![16384]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2, .f32⟩
  | .hbm, ⟨2, _⟩ => ⟨S2, .f32⟩
  | .hbm, ⟨3, _⟩ => ⟨S16384x2, .f32⟩
  | .hbm, ⟨4, _⟩ => ⟨S1x2, .f32⟩
  | .hbm, ⟨5, _⟩ => ⟨S16384x2, .f32⟩
  | .hbm, ⟨6, _⟩ => ⟨S16384x2, .f32⟩
  | .hbm, ⟨7, _⟩ => ⟨S16384x2, .f32⟩
  | .hbm, ⟨8, _⟩ => ⟨S16384x2, .f32⟩
  | .hbm, ⟨9, _⟩ => ⟨S_, .f32⟩
  | .hbm, ⟨10, _⟩ => ⟨S16384x2, .f32⟩
  | .hbm, ⟨11, _⟩ => ⟨S16384x2, .f32⟩
  | .hbm, ⟨12, _⟩ => ⟨S_, .f32⟩
  | .hbm, ⟨13, _⟩ => ⟨S16384x2, .f32⟩
  | .hbm, ⟨14, _⟩ => ⟨S16384x2, .f32⟩
  | .hbm, ⟨15, _⟩ => ⟨S16384x1, .f32⟩
  | .hbm, ⟨16, _⟩ => ⟨S16384, .f32⟩
  | .hbm, ⟨17, _⟩ => ⟨S16384x1, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .i1⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .i1⟩
  | .hbm, ⟨26, _⟩ => ⟨S16384, .f32⟩
  | .hbm, ⟨27, _⟩ => ⟨S16384, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S16384, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]

class Facts₀ : Prop where
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  bcast_S_S16384x2 : S_.BroadcastsInDim S16384x2 (![] : Fin 0 → Fin S16384x2.rank)
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  dot_S16384x2048_S2048x2_S16384x2_1_0_0_1_n_n_wf : DotDims.WF S16384x2048 S2048x2 S16384x2 [1] [0] [0] [1] [] []

variable [Facts₀]

def dot_S16384x2048_S2048x2_S16384x2_1_0_0_1_n_n : DotDims S16384x2048 S2048x2 S16384x2 where
  lhsContracting := [1]
  rhsContracting := [0]
  lhsNonContracting := [0]
  rhsNonContracting := [1]
  lhsBatch := []
  rhsBatch := []
  wf := dot_S16384x2048_S2048x2_S16384x2_1_0_0_1_n_n_wf

class Facts : Prop extends Facts₀ where

variable [Facts]
-- ==== Proof.Gate.lean ====
/-
  Score-weighted routing of rows through a two-branch gate, on the extended reals.

  For a row r of x and a branch j the pre-activation is z = (∑ₖ x[r,k] · w[k,j]) + b[j]; the row's score is the
  sigmoid s = 1 / (1 + exp (−z)); the row is dispatched to branch j iff s > 1/2, and what is dispatched is the
  row scaled by s.  So each branch's result is x with every row multiplied by one number, its WEIGHT
  s · [s > 1/2], and the combined result is the sum of the two branches' results.

  Two spellings of the weight occur: "s where s > 1/2, else 0" and "s times the 0/1 indicator of s > 1/2"; and
  two of the exponent: 0 − z and −z.  Each pair is one function on EVERY extended real (s · 1 = s and s · 0 = 0
  hold at ±∞ too, and 0 − z = −z), so nothing here asks the entries to be finite.
-/
import Idealize.ShloMosaic.PureOps.Ideal.Laws
import Idealize.ShloMosaic.Lib.ValueIdx

noncomputable section

namespace Cert.Route

open Idealize.ShloMosaic Idealize.ShloMosaic.ValueIdx

/-- The sigmoid of a pre-activation, `1 / (1 + exp (−z))`, the two ones the f32 word of 1.0. -/
def score (z : EReal) : EReal :=
  Ideal.div (Ideal.ofBits .f32 0x3F800000#32) (Ideal.ofBits .f32 0x3F800000#32 + Ideal.exp (-z))

/-- The dispatch weight of a pre-activation: its score times the 0/1 indicator of "the score exceeds one half"
    (one half the f32 word of 0.5). -/
def weight (z : EReal) : EReal :=
  score z * (((Ideal.cmp .ogt (score z) (Ideal.ofBits .f32 0x3F000000#32)).toNat : ℝ) : EReal)

/-- The same weight spelt by selection and with the exponent as a difference from zero: the score
    `1 / (1 + exp (0 − z))` where it exceeds one half, else zero. -/
def weightBySelect (z : EReal) : EReal :=
  Scalar.select
    (Ideal.cmp .ogt (Ideal.div (Ideal.ofBits .f32 0x3F800000#32)
        (Ideal.ofBits .f32 0x3F800000#32 + Ideal.exp (Ideal.ofBits .f32 0x00000000#32 - z))) (Ideal.ofBits .f32 0x3F000000#32))
    (Ideal.div (Ideal.ofBits .f32 0x3F800000#32)
        (Ideal.ofBits .f32 0x3F800000#32 + Ideal.exp (Ideal.ofBits .f32 0x00000000#32 - z)))
    (Ideal.ofBits .f32 0x00000000#32)

/-- "s where s > h, else 0" is "s times the indicator of s > h", for all extended reals s and h. -/
theorem select_eq_mul_indicator (s h : EReal) :
    Scalar.select (Ideal.cmp .ogt s h) s (Ideal.ofBits .f32 0x00000000#32)
      = s * (((Ideal.cmp .ogt s h).toNat : ℝ) : EReal) := by
  have hc : Ideal.cmp .ogt s h = BitVec.ofBool (decide (h < s)) := rfl
  rw [hc]
  by_cases hh : h < s
  · rw [decide_eq_true hh]
    show Scalar.select 1#1 s _ = s * ((((1#1 : BitVec 1).toNat : ℕ) : ℝ) : EReal)
    rw [ValueIdx.select_one]
    simp
  · rw [decide_eq_false hh]
    show Scalar.select 0#1 s _ = s * ((((0#1 : BitVec 1).toNat : ℕ) : ℝ) : EReal)
    rw [ValueIdx.select_zero, Ideal.ofBits_zero_f32]
    simp

/-- `0 − z = −z`, the zero the f32 word of 0.0. -/
theorem zero_word_sub (z : EReal) : Ideal.ofBits .f32 0x00000000#32 - z = -z := by
  rw [Ideal.ofBits_zero_f32, zero_sub]

/-- The two spellings of the weight are one function. -/
theorem weightBySelect_eq (z : EReal) : weightBySelect z = weight z := by
  unfold weightBySelect weight score
  rw [zero_word_sub, select_eq_mul_indicator]

/-! ## The three result arrays as functions of the argument arrays -/

/-- Row `r`'s weight toward branch `j`: the weight of `(∑ₖ x[r,k] · w[k,j]) + b[j]`. -/
def rowWeight (X : (⟨2, ![16384, 2048]⟩ : Shape).Idx → EReal) (W : (⟨2, ![2048, 2]⟩ : Shape).Idx → EReal)
    (B : (⟨1, ![2]⟩ : Shape).Idx → EReal) (r : Fin 16384) (j : Fin 2) : EReal :=
  weight ((∑ k : Fin 2048, X (ix2 r k) * W (ix2 k j)) + B (ix1 j))

/-- Branch `j`'s routed array: `x` with each row scaled by its weight toward `j`. -/
def routed (j : Fin 2) (X : (⟨2, ![16384, 2048]⟩ : Shape).Idx → EReal) (W : (⟨2, ![2048, 2]⟩ : Shape).Idx → EReal)
    (B : (⟨1, ![2]⟩ : Shape).Idx → EReal) : (⟨2, ![16384, 2048]⟩ : Shape).Idx → EReal :=
  fun i => X i * rowWeight X W B (i 0) j

/-- The combined array: the two branches' routed arrays added, branch 0 first. -/
def combined (X : (⟨2, ![16384, 2048]⟩ : Shape).Idx → EReal) (W : (⟨2, ![2048, 2]⟩ : Shape).Idx → EReal)
    (B : (⟨1, ![2]⟩ : Shape).Idx → EReal) : (⟨2, ![16384, 2048]⟩ : Shape).Idx → EReal :=
  fun i => routed 0 X W B i + routed 1 X W B i

end Cert.Route

end
-- ==== Proof.BlockRead.lean ====
/-
  What a grid point's input blocks hold, in terms of the three arguments.

  The grid has 32 points; point t works on rows 512·t … 512·t + 511.  Its block of x is those rows of x (all 2048
  columns); its blocks of w and of the bias row are the whole of w and of the bias, at every point.  The bias the
  region reads is the [2] argument b recast as a [1, 2] array, so its entry (0, j) is b[j].
-/
import proofs.«133412_g15728170238619_cont_week2b_584_20_alg».proof.Proof.Gen.KernelIdeal.Value
import proofs.«133412_g15728170238619_cont_week2b_584_20_alg».proof.Proof.Gate
import Idealize.ShloMosaic.Lib.ValueIdx
import Idealize.ShloMosaic.Lib.Pipeline.Value
import Idealize.ShloMosaic.Lib.StableHlo.Run

noncomputable section

namespace Cert.Route.Arr

open Cert.KernelIdeal Cert.KernelIdeal.Gen
open Idealize.ShloMosaic Idealize.ShloMosaic.TcCoe Idealize.SL.Sem Idealize.ShloMosaic.ValueIdx Cert.Route
open Idealize.ShloMosaic.Pipeline (Dat)

variable (m : (ℓ : Loc nD τ sig) → Buf (Elt Ideal) ℓ) (ρ : Dev nD → PrngReg)

/-- The offset (0, 0) is the zero offset. -/
theorem origin2 : (![0, 0] : Fin 2 → Nat) = fun _ => 0 := funext fun a => by fin_cases a <;> rfl

/-- The bias array the region finds: the [2] argument recast as [1, 2]. -/
theorem bias_entry (c : Dev nD) :
    (V m c main_call0_v0 : S1x2.Idx → EReal) = shapeCast S1x2 (m ((c : Thread nD τ).loc main_arg2)) shapeCasts_S2_S1x2 := by
  dsimp only [Gen.V, Gen.hostOps0]
  after_results
  rfl

/-- Its entry (0, j) is the argument's entry j. -/
theorem bias_read (c : Dev nD) (j : Fin 2) :
    V m c main_call0_v0 (ix2 (0 : Fin 1) j) = m ((c : Thread nD τ).loc main_arg2) (ix1 j) := by
  rw [bias_entry]
  exact shapeCast_apply _ shapeCasts_S2_S1x2 (ix2 (0 : Fin 1) j) (ix1 j)
    (by rewrite [Shape.rowMajor_val_two, Shape.rowMajor_val_one]; show j.val = 0 * 2 + j.val; omega)

/-- The index maps over the 32 grid points: point t's blocks of x and of the three results all sit at the same
    block row (at most 31) and at column block 0; w and the bias are whole, at block (0, 0). -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0
    ∧ win0_4.index t (0 : Fin 2) = win0_3.index t (0 : Fin 2) ∧ win0_4.index t (1 : Fin 2) = 0
    ∧ win0_5.index t (0 : Fin 2) = win0_3.index t (0 : Fin 2) ∧ win0_5.index t (1 : Fin 2) = 0
    ∧ win0_3.index t (0 : Fin 2) ≤ 31 :=
  (by decide +kernel : ∀ t : Fin grid0.N, _)

/-- The array row under block row r of point t: 512 · (the point's block row) + r. -/
def rowOf (t : Fin cfg0.N) (r : Fin 512) : Fin 16384 :=
  ⟨win0_3.index t (0 : Fin 2) * 512 + r.val, by
    have h := (idx_facts t).2.2.2.2.2.2.2.2.2.2.2
    have hr : r.val < 512 := r.isLt
    omega⟩

/-- Entry (r, q) of point t's block of x sits at array index (rowOf t r, q); -/
theorem emb0 (t : Fin cfg0.N) (r : Fin 512) (q : Fin 2048) :
    ((cfg0.win 0).blk t).view.emb (ix2 r q) = ix2 (rowOf t r) q := by
  obtain ⟨e0, e1, e2, e3, e4, e5, e6, e7, e8, e9, e10, e11⟩ := idx_facts t
  funext a; apply Fin.ext
  match a with
  | ⟨0, _⟩ => show win0_0.index t (0 : Fin 2) * 512 + 1 * r.val = win0_3.index t (0 : Fin 2) * 512 + r.val; omega
  | ⟨1, _⟩ => show win0_0.index t (1 : Fin 2) * 2048 + 1 * q.val = q.val; omega

/-- an entry of its block of w sits at the same index of w; -/
theorem emb1 (t : Fin cfg0.N) (k : Fin 2048) (j : Fin 2) :
    ((cfg0.win 1).blk t).view.emb (ix2 k j) = ix2 k j := by
  obtain ⟨e0, e1, e2, e3, e4, e5, e6, e7, e8, e9, e10, e11⟩ := idx_facts t
  funext a; apply Fin.ext
  match a with
  | ⟨0, _⟩ => show win0_1.index t (0 : Fin 2) * 2048 + 1 * k.val = k.val; omega
  | ⟨1, _⟩ => show win0_1.index t (1 : Fin 2) * 2 + 1 * j.val = j.val; omega

/-- and an entry of its block of the bias row at the same index of the bias row. -/
theorem emb2 (t : Fin cfg0.N) (j : Fin 2) :
    ((cfg0.win 2).blk t).view.emb (ix2 (0 : Fin 1) j) = ix2 (0 : Fin 1) j := by
  obtain ⟨e0, e1, e2, e3, e4, e5, e6, e7, e8, e9, e10, e11⟩ := idx_facts t
  funext a; apply Fin.ext
  match a with
  | ⟨0, _⟩ => show win0_2.index t (0 : Fin 2) * 1 + 1 * 0 = 0; omega
  | ⟨1, _⟩ => show win0_2.index t (1 : Fin 2) * 2 + 1 * j.val = j.val; omega

/-- Point t's block of x at (r, q) is the argument x at (rowOf t r, q). -/
theorem xblk (c : Dev nD) (t : Fin cfg0.N) (r : Fin 512) (q : Fin 2048) :
    iblk m c 0 t (ix2 r q) = m ((c : Thread nD τ).loc main_arg0) (ix2 (rowOf t r) q) := by
  show V m c main_arg0 (((cfg0.win 0).blk t).view.emb (ix2 r q)) = _
  rw [emb0, V_main_arg0]

/-- Its block of w is the argument w. -/
theorem wblk (c : Dev nD) (t : Fin cfg0.N) (k : Fin 2048) (j : Fin 2) :
    iblk m c 1 t (ix2 k j) = m ((c : Thread nD τ).loc main_arg1) (ix2 k j) := by
  show V m c main_arg1 (((cfg0.win 1).blk t).view.emb (ix2 k j)) = _
  rw [emb1, V_main_arg1]

/-- Its block of the bias row at (0, j) is the argument b at j. -/
theorem bblk (c : Dev nD) (t : Fin cfg0.N) (j : Fin 2) :
    iblk m c 2 t (ix2 (0 : Fin 1) j) = m ((c : Thread nD τ).loc main_arg2) (ix1 j) := by
  show V m c main_call0_v0 (((cfg0.win 2).blk t).view.emb (ix2 (0 : Fin 1) j)) = _
  rw [emb2, bias_read]

end Cert.Route.Arr

end
-- ==== Proof.BlockWeight.lean ====
/-
  The weight a grid point's body computes for one row of its block.

  The body multiplies the point's block of x, [512, 2048], by the whole w, [2048, 2], into a zero accumulator,
  adds the bias row b[0, ·] stretched over the 512 rows, and turns every entry z of that [512, 2] array into
  "1 / (1 + exp (0 − z)) where that exceeds 1/2, else 0".  At block row r and branch j this is the weight of
  (∑ₖ x[r,k] · w[k,j]) + b[0,j]: the product read at an index is the row-by-column sum over the one contracted
  axis, and the selection is the product with the indicator (`weightBySelect_eq`).
-/
import proofs.«133412_g15728170238619_cont_week2b_584_20_alg».proof.Proof.Gen.KernelIdeal.Skeleton
import proofs.«133412_g15728170238619_cont_week2b_584_20_alg».proof.Proof.Gate
import Idealize.ShloMosaic.PureOps.Ideal.Laws
import Idealize.ShloMosaic.Lib.ValueIdx
import Idealize.ShloMosaic.Lib.Pipeline.Value

noncomputable section

namespace Cert.Route.Block

open Cert.KernelIdeal Cert.KernelIdeal.Gen
open Idealize.ShloMosaic Idealize.ShloMosaic.ValueIdx Cert.Route

/-! ## The product's operand indices -/

theorem lhs_row (i : S512x2.Idx) (q : dot_S512x2048_S2048x2_S512x2_1_0_0_1_n_n.contr.Idx) :
    (dot_S512x2048_S2048x2_S512x2_1_0_0_1_n_n.lhsIdx i q 0).val = (i 0).val := by
  unfold DotDims.lhsIdx
  rw [dif_neg (show ¬(0 : Fin S512x2048.rank) ∈ dot_S512x2048_S2048x2_S512x2_1_0_0_1_n_n.lhsBatch by decide),
    dif_pos (show (0 : Fin S512x2048.rank) ∈ dot_S512x2048_S2048x2_S512x2_1_0_0_1_n_n.lhsNonContracting by decide)]
  rfl

theorem lhs_contr (i : S512x2.Idx) (q : dot_S512x2048_S2048x2_S512x2_1_0_0_1_n_n.contr.Idx) :
    (dot_S512x2048_S2048x2_S512x2_1_0_0_1_n_n.lhsIdx i q 1).val = (q ⟨0, by decide⟩).val :=
  dot_S512x2048_S2048x2_S512x2_1_0_0_1_n_n.lhsIdx_val_of_single rfl i q

theorem rhs_contr (i : S512x2.Idx) (q : dot_S512x2048_S2048x2_S512x2_1_0_0_1_n_n.contr.Idx) :
    (dot_S512x2048_S2048x2_S512x2_1_0_0_1_n_n.rhsIdx i q 0).val = (q ⟨0, by decide⟩).val :=
  dot_S512x2048_S2048x2_S512x2_1_0_0_1_n_n.rhsIdx_val_of_single rfl i q

theorem rhs_col (i : S512x2.Idx) (q : dot_S512x2048_S2048x2_S512x2_1_0_0_1_n_n.contr.Idx) :
    (dot_S512x2048_S2048x2_S512x2_1_0_0_1_n_n.rhsIdx i q 1).val = (i 1).val := by
  unfold DotDims.rhsIdx
  rw [dif_neg (show ¬(1 : Fin S2048x2.rank) ∈ dot_S512x2048_S2048x2_S512x2_1_0_0_1_n_n.rhsBatch by decide),
    dif_pos (show (1 : Fin S2048x2.rank) ∈ dot_S512x2048_S2048x2_S512x2_1_0_0_1_n_n.rhsNonContracting by decide)]
  rfl

/-- The block's product with w, into a zero accumulator, at (r, j): the sum over k of x[r,k] · w[k,j]. -/
theorem product_at (P0 : FVec Ideal S512x2048 .f32) (P1 : FVec Ideal S2048x2 .f32) (r : Fin 512) (j : Fin 2) :
    matmul dot_S512x2048_S2048x2_S512x2_1_0_0_1_n_n none P0 P1 (constant (F := Ideal) S512x2 .f32 0x00000000#32) (ix2 r j)
      = ∑ k : Fin 2048, P0 (ix2 r k) * P1 (ix2 k j) := by
  simp only [matmul]
  rw [Ideal.matmul_constant_zero_apply,
    ← Equiv.sum_comp (contrEquiv1 dot_S512x2048_S2048x2_S512x2_1_0_0_1_n_n 2048 rfl rfl).symm]
  refine Finset.sum_congr rfl fun k _ => ?_
  have hk := contrEquiv1_symm_val dot_S512x2048_S2048x2_S512x2_1_0_0_1_n_n 2048 rfl rfl k
  have el : dot_S512x2048_S2048x2_S512x2_1_0_0_1_n_n.lhsIdx (ix2 r j) ((contrEquiv1 dot_S512x2048_S2048x2_S512x2_1_0_0_1_n_n 2048 rfl rfl).symm k) = ix2 r k :=
    funext fun a => Fin.ext (by
      match a with
      | ⟨0, _⟩ => exact lhs_row _ _
      | ⟨1, _⟩ => exact (lhs_contr _ _).trans hk)
  have er : dot_S512x2048_S2048x2_S512x2_1_0_0_1_n_n.rhsIdx (ix2 r j) ((contrEquiv1 dot_S512x2048_S2048x2_S512x2_1_0_0_1_n_n 2048 rfl rfl).symm k) = ix2 k j :=
    funext fun a => Fin.ext (by
      match a with
      | ⟨0, _⟩ => exact (rhs_contr _ _).trans hk
      | ⟨1, _⟩ => exact rhs_col _ _)
  rw [el, er]

/-- The bias row stretched over the block's rows reads b[0, j] at (r, j). -/
theorem bias_at (P2 : FVec Ideal S1x2 .f32) (r : Fin 512) (j : Fin 2) :
    broadcastTo S512x2 (shapeCast S1x2 P2 shapeCasts_S1x2_S1x2) broadcasts_S1x2_S512x2 (ix2 r j)
      = P2 (ix2 (0 : Fin 1) j) := by
  rw [shapeCast_self]
  exact broadcastTo_apply P2 broadcasts_S1x2_S512x2 (ix2 r j) (ix2 (0 : Fin 1) j) (fun a => match a with
    | ⟨0, _⟩ => by show 0 = (if (1 : Nat) = 1 then 0 else r.val); rw [if_pos rfl]
    | ⟨1, _⟩ => by show j.val = (if (2 : Nat) = 1 then 0 else j.val); rw [if_neg (by decide)])

/-- The body's weight array is the selected score of the pre-activation array, entry by entry. -/
theorem pay_eq (P0 : FVec Ideal S512x2048 .f32) (P1 : FVec Ideal S2048x2 .f32) (P2 : FVec Ideal S1x2 .f32) (i : S512x2.Idx) :
    k0_pay1 (F := Ideal) P0 P1 P2 i
      = weightBySelect (addf (matmul dot_S512x2048_S2048x2_S512x2_1_0_0_1_n_n none P0 P1 (constant (F := Ideal) S512x2 .f32 0x00000000#32))
          (broadcastTo S512x2 (shapeCast S1x2 P2 shapeCasts_S1x2_S1x2) broadcasts_S1x2_S512x2) i) := rfl

/-- At block row r and branch j the body's weight is the weight of (∑ₖ x[r,k] · w[k,j]) + b[0,j]. -/
theorem weight_at (P0 : FVec Ideal S512x2048 .f32) (P1 : FVec Ideal S2048x2 .f32) (P2 : FVec Ideal S1x2 .f32)
    (r : Fin 512) (j : Fin 2) :
    k0_pay1 (F := Ideal) P0 P1 P2 (ix2 r j)
      = weight ((∑ k : Fin 2048, P0 (ix2 r k) * P1 (ix2 k j)) + P2 (ix2 (0 : Fin 1) j)) := by
  rw [pay_eq, weightBySelect_eq, addf_apply, product_at, bias_at]

end Cert.Route.Block

end
-- ==== Proof.Branch0.lean ====
/-
  The first result array is branch 0's routed array.

  At every grid point the body leaves in this result's block, at (r, q), the block's x[r, q] times the weight the
  body computed for block row r toward branch 0.  With the point's blocks read as the arguments, that is block t
  of branch 0's routed array; the 32 blocks are the 32 bands of 512 rows, which cover the array, so the array
  ends as the routed array.
-/
import proofs.«133412_g15728170238619_cont_week2b_584_20_alg».proof.Proof.BlockRead
import proofs.«133412_g15728170238619_cont_week2b_584_20_alg».proof.Proof.BlockWeight

noncomputable section

namespace Cert.Route.Arr

open Cert.KernelIdeal Cert.KernelIdeal.Gen
open Idealize.ShloMosaic Idealize.ShloMosaic.TcCoe Idealize.SL.Sem Idealize.ShloMosaic.ValueIdx Cert.Route
open Idealize.ShloMosaic.Pipeline (Dat)

variable (m : (ℓ : Loc nD τ sig) → Buf (Elt Ideal) ℓ) (ρ : Dev nD → PrngReg)

/-- What the body leaves in this result's block at (r, q): x[r, q] times block row r's weight toward branch 0. -/
theorem out3_at (x0 : Vec Ideal S512x2048 .f32) (x1 : Vec Ideal S2048x2 .f32) (x2 : Vec Ideal S1x2 .f32)
    (r : Fin 512) (q : Fin 2048) :
    out0_3 x0 x1 x2 (ix2 r q)
      = x0 (ix2 r q) * weight ((∑ k : Fin 2048, x0 (ix2 r k) * x1 (ix2 k (0 : Fin 2))) + x2 (ix2 (0 : Fin 1) (0 : Fin 2))) := by
  unfold out0_3
  rw [Value.canon3_eq]
  simp only [View.ld_unit_zero (S := S512x2048) origin2, View.ld_unit_zero (S := S2048x2) origin2,
    View.ld_unit_zero (S := S1x2) origin2]
  have e0 : Value.ix3_0 (ix2 r q) = ix2 r q :=
    funext fun a => Fin.ext (by match a with | ⟨0, _⟩ => rfl | ⟨1, _⟩ => rfl)
  have e1 : Value.ix3_1 (ix2 r q) = ix2 r (0 : Fin 2) :=
    funext fun a => Fin.ext (by match a with | ⟨0, _⟩ => rfl | ⟨1, _⟩ => rfl)
  show FloatOps.mulf (x0 (Value.ix3_0 (ix2 r q))) (k0_pay1 x0 x1 x2 (Value.ix3_1 (ix2 r q))) = _
  rw [e0, e1, Block.weight_at]
  rfl

/-- Entry (r, q) of point t's block of this result sits at array index (rowOf t r, q). -/
theorem emb3 (t : Fin cfg0.N) (r : Fin 512) (q : Fin 2048) :
    ((cfg0.win 3).blk t).view.emb (ix2 r q) = ix2 (rowOf t r) q := by
  obtain ⟨e0, e1, e2, e3, e4, e5, e6, e7, e8, e9, e10, e11⟩ := idx_facts t
  funext a; apply Fin.ext
  match a with
  | ⟨0, _⟩ => show win0_3.index t (0 : Fin 2) * 512 + 1 * r.val = win0_3.index t (0 : Fin 2) * 512 + r.val; omega
  | ⟨1, _⟩ => show win0_3.index t (1 : Fin 2) * 2048 + 1 * q.val = q.val; omega

/-- What point t writes back to this result is block t of branch 0's routed array. -/
theorem flushed3_eq (c : Dev nD) (t : Fin cfg0.N) :
    (dats m 0 c).flushed 3 t = ((cfg0.win 3).blk t).view.read (Elt Ideal)
      (routed 0 (m ((c : Thread nD τ).loc main_arg0)) (m ((c : Thread nD τ).loc main_arg1)) (m ((c : Thread nD τ).loc main_arg2))) := by
  rw [Value.flushed3]
  refine funext fun (y : S512x2048.Idx) => ?_
  obtain ⟨r, q, rfl⟩ : ∃ (r : Fin 512) (q : Fin 2048), y = ix2 r q := ⟨y 0, y 1, eq_ix2 y⟩
  show out0_3 (iblk m c 0 t) (iblk m c 1 t) (iblk m c 2 t) (ix2 r q)
    = routed 0 (m ((c : Thread nD τ).loc main_arg0)) (m ((c : Thread nD τ).loc main_arg1)) (m ((c : Thread nD τ).loc main_arg2))
        (((cfg0.win 3).blk t).view.emb (ix2 r q))
  rw [emb3]
  refine (out3_at (iblk m c 0 t) (iblk m c 1 t) (iblk m c 2 t) r q).trans ?_
  rw [xblk m c t r q, bblk m c t 0]
  simp only [xblk m c t r, wblk m c t]
  rfl

/-- An array index is in point t's block iff each coordinate is in the block's range on its axis. -/
theorem mem_blk3 (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v0_0).slice (win0_3.rect t)).set ↔ _
  rw [View.set_slice_whole, Rect.mem_set_unit]
  exact Iff.rfl

/-- Every one of the 32 bands of rows is some point's block. -/
theorem onto3 : ∀ q0 : Fin 32, ∃ t : Fin cfg0.N, win0_3.index t = ![q0.val, 0] :=
  (by decide +kernel : ∀ q0 : Fin 32, ∃ t : Fin grid0.N, win0_3.index t = ![q0.val, 0])

/-- The blocks cover the array: row i₀ lies in band i₀ / 512. -/
theorem cover3 (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ := onto3 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- After the run the first result array is branch 0's routed array of the arguments. -/
theorem final3 (c : Dev nD) :
    (dats m 0 c).arrAt 3 cfg0.N
      = routed 0 (m ((c : Thread nD τ).loc main_arg0)) (m ((c : Thread nD τ).loc main_arg1)) (m ((c : Thread nD τ).loc main_arg2)) :=
  (dats m 0 c).arrAt_eq_of_cover 3 _ (fun t _ => flushed3_eq m c t) cover3

end Cert.Route.Arr

end
-- ==== Proof.Branch1.lean ====
/-
  The second result array is branch 1's routed array.

  At every grid point the body leaves in this result's block, at (r, q), the block's x[r, q] times the weight the
  body computed for block row r toward branch 1.  With the point's blocks read as the arguments, that is block t
  of branch 1's routed array; the 32 blocks are the 32 bands of 512 rows, which cover the array, so the array
  ends as the routed array.
-/
import proofs.«133412_g15728170238619_cont_week2b_584_20_alg».proof.Proof.BlockRead
import proofs.«133412_g15728170238619_cont_week2b_584_20_alg».proof.Proof.BlockWeight

noncomputable section

namespace Cert.Route.Arr

open Cert.KernelIdeal Cert.KernelIdeal.Gen
open Idealize.ShloMosaic Idealize.ShloMosaic.TcCoe Idealize.SL.Sem Idealize.ShloMosaic.ValueIdx Cert.Route
open Idealize.ShloMosaic.Pipeline (Dat)

variable (m : (ℓ : Loc nD τ sig) → Buf (Elt Ideal) ℓ) (ρ : Dev nD → PrngReg)

/-- What the body leaves in this result's block at (r, q): x[r, q] times block row r's weight toward branch 1. -/
theorem out4_at (x0 : Vec Ideal S512x2048 .f32) (x1 : Vec Ideal S2048x2 .f32) (x2 : Vec Ideal S1x2 .f32)
    (r : Fin 512) (q : Fin 2048) :
    out0_4 x0 x1 x2 (ix2 r q)
      = x0 (ix2 r q) * weight ((∑ k : Fin 2048, x0 (ix2 r k) * x1 (ix2 k (1 : Fin 2))) + x2 (ix2 (0 : Fin 1) (1 : Fin 2))) := by
  unfold out0_4
  rw [Value.canon4_eq]
  simp only [View.ld_unit_zero (S := S512x2048) origin2, View.ld_unit_zero (S := S2048x2) origin2,
    View.ld_unit_zero (S := S1x2) origin2]
  have e0 : Value.ix4_0 (ix2 r q) = ix2 r q :=
    funext fun a => Fin.ext (by match a with | ⟨0, _⟩ => rfl | ⟨1, _⟩ => rfl)
  have e1 : Value.ix4_1 (ix2 r q) = ix2 r (1 : Fin 2) :=
    funext fun a => Fin.ext (by match a with | ⟨0, _⟩ => rfl | ⟨1, _⟩ => rfl)
  show FloatOps.mulf (x0 (Value.ix4_0 (ix2 r q))) (k0_pay1 x0 x1 x2 (Value.ix4_1 (ix2 r q))) = _
  rw [e0, e1, Block.weight_at]
  rfl

/-- Entry (r, q) of point t's block of this result sits at array index (rowOf t r, q). -/
theorem emb4 (t : Fin cfg0.N) (r : Fin 512) (q : Fin 2048) :
    ((cfg0.win 4).blk t).view.emb (ix2 r q) = ix2 (rowOf t r) q := by
  obtain ⟨e0, e1, e2, e3, e4, e5, e6, e7, e8, e9, e10, e11⟩ := idx_facts t
  funext a; apply Fin.ext
  match a with
  | ⟨0, _⟩ => show win0_4.index t (0 : Fin 2) * 512 + 1 * r.val = win0_3.index t (0 : Fin 2) * 512 + r.val; omega
  | ⟨1, _⟩ => show win0_4.index t (1 : Fin 2) * 2048 + 1 * q.val = q.val; omega

/-- What point t writes back to this result is block t of branch 1's routed array. -/
theorem flushed4_eq (c : Dev nD) (t : Fin cfg0.N) :
    (dats m 0 c).flushed 4 t = ((cfg0.win 4).blk t).view.read (Elt Ideal)
      (routed 1 (m ((c : Thread nD τ).loc main_arg0)) (m ((c : Thread nD τ).loc main_arg1)) (m ((c : Thread nD τ).loc main_arg2))) := by
  rw [Value.flushed4]
  refine funext fun (y : S512x2048.Idx) => ?_
  obtain ⟨r, q, rfl⟩ : ∃ (r : Fin 512) (q : Fin 2048), y = ix2 r q := ⟨y 0, y 1, eq_ix2 y⟩
  show out0_4 (iblk m c 0 t) (iblk m c 1 t) (iblk m c 2 t) (ix2 r q)
    = routed 1 (m ((c : Thread nD τ).loc main_arg0)) (m ((c : Thread nD τ).loc main_arg1)) (m ((c : Thread nD τ).loc main_arg2))
        (((cfg0.win 4).blk t).view.emb (ix2 r q))
  rw [emb4]
  refine (out4_at (iblk m c 0 t) (iblk m c 1 t) (iblk m c 2 t) r q).trans ?_
  rw [xblk m c t r q, bblk m c t 1]
  simp only [xblk m c t r, wblk m c t]
  rfl

/-- An array index is in point t's block iff each coordinate is in the block's range on its axis. -/
theorem mem_blk4 (t : Fin cfg0.N) (i : S16384x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v0_1).slice (win0_4.rect t)).set ↔ _
  rw [View.set_slice_whole, Rect.mem_set_unit]
  exact Iff.rfl

/-- Every one of the 32 bands of rows is some point's block. -/
theorem onto4 : ∀ q0 : Fin 32, ∃ t : Fin cfg0.N, win0_4.index t = ![q0.val, 0] :=
  (by decide +kernel : ∀ q0 : Fin 32, ∃ t : Fin grid0.N, win0_4.index t = ![q0.val, 0])

/-- The blocks cover the array: row i₀ lies in band i₀ / 512. -/
theorem cover4 (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  obtain ⟨t, ht⟩ := onto4 ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- After the run the second result array is branch 1's routed array of the arguments. -/
theorem final4 (c : Dev nD) :
    (dats m 0 c).arrAt 4 cfg0.N
      = routed 1 (m ((c : Thread nD τ).loc main_arg0)) (m ((c : Thread nD τ).loc main_arg1)) (m ((c : Thread nD τ).loc main_arg2)) :=
  (dats m 0 c).arrAt_eq_of_cover 4 _ (fun t _ => flushed4_eq m c t) cover4

end Cert.Route.Arr

end
-- ==== Proof.Combined.lean ====
/-
  The third result array is the combined array: the two branches' routed arrays added.

  At every grid point the body leaves in this result's block, at (r, q), the sum of the two products it stored
  in the first two results' blocks: x[r, q] times block row r's weight toward branch 0, plus x[r, q] times its
  weight toward branch 1, in that order.  Read through the arguments this is block t of the combined array, and
  the 32 bands of 512 rows cover the array.
-/
import proofs.«133412_g15728170238619_cont_week2b_584_20_alg».proof.Proof.BlockRead
import proofs.«133412_g15728170238619_cont_week2b_584_20_alg».proof.Proof.BlockWeight

noncomputable section

namespace Cert.Route.Arr

open Cert.KernelIdeal Cert.KernelIdeal.Gen
open Idealize.ShloMosaic Idealize.ShloMosaic.TcCoe Idealize.SL.Sem Idealize.ShloMosaic.ValueIdx Cert.Route
open Idealize.ShloMosaic.Pipeline (Dat)

variable (m : (ℓ : Loc nD τ sig) → Buf (Elt Ideal) ℓ) (ρ : Dev nD → PrngReg)

/-- What the body leaves in this result's block at (r, q): the branch-0 product plus the branch-1 product. -/
theorem out5_at (x0 : Vec Ideal S512x2048 .f32) (x1 : Vec Ideal S2048x2 .f32) (x2 : Vec Ideal S1x2 .f32)
    (r : Fin 512) (q : Fin 2048) :
    out0_5 x0 x1 x2 (ix2 r q)
      = x0 (ix2 r q) * weight ((∑ k : Fin 2048, x0 (ix2 r k) * x1 (ix2 k (0 : Fin 2))) + x2 (ix2 (0 : Fin 1) (0 : Fin 2)))
        + x0 (ix2 r q) * weight ((∑ k : Fin 2048, x0 (ix2 r k) * x1 (ix2 k (1 : Fin 2))) + x2 (ix2 (0 : Fin 1) (1 : Fin 2))) := by
  unfold out0_5
  rw [Value.canon5_eq]
  simp only [View.ld_unit_zero (S := S512x2048) origin2, View.ld_unit_zero (S := S2048x2) origin2,
    View.ld_unit_zero (S := S1x2) origin2]
  have e0 : Value.ix5_0 (ix2 r q) = ix2 r q :=
    funext fun a => Fin.ext (by match a with | ⟨0, _⟩ => rfl | ⟨1, _⟩ => rfl)
  have e1 : Value.ix5_1 (ix2 r q) = ix2 r (0 : Fin 2) :=
    funext fun a => Fin.ext (by match a with | ⟨0, _⟩ => rfl | ⟨1, _⟩ => rfl)
  have e2 : Value.ix5_2 (ix2 r q) = ix2 r q :=
    funext fun a => Fin.ext (by match a with | ⟨0, _⟩ => rfl | ⟨1, _⟩ => rfl)
  have e3 : Value.ix5_3 (ix2 r q) = ix2 r (1 : Fin 2) :=
    funext fun a => Fin.ext (by match a with | ⟨0, _⟩ => rfl | ⟨1, _⟩ => rfl)
  show FloatOps.addf
      (FloatOps.mulf (x0 (Value.ix5_0 (ix2 r q))) (k0_pay1 x0 x1 x2 (Value.ix5_1 (ix2 r q))))
      (FloatOps.mulf (x0 (Value.ix5_2 (ix2 r q))) (k0_pay1 x0 x1 x2 (Value.ix5_3 (ix2 r q)))) = _
  rw [e0, e1, e2, e3, Block.weight_at, Block.weight_at]
  rfl

/-- Entry (r, q) of point t's block of this result sits at array index (rowOf t r, q). -/
theorem emb5 (t : Fin cfg0.N) (r : Fin 512) (q : Fin 2048) :
    ((cfg0.win 5).blk t).view.emb (ix2 r q) = ix2 (rowOf t r) q := by
  obtain ⟨e0, e1, e2, e3, e4, e5, e6, e7, e8, e9, e10, e11⟩ := idx_facts t
  funext a; apply Fin.ext
  match a with
  | ⟨0, _⟩ => show win0_5.index t (0 : Fin 2) * 512 + 1 * r.val = win0_3.index t (0 : Fin 2) * 512 + r.val; omega
  | ⟨1, _⟩ => show win0_5.index t (1 : Fin 2) * 2048 + 1 * q.val = q.val; omega

/-- What point t writes back to this result is block t of the combined array. -/
theorem flushed5_eq (c : Dev nD) (t : Fin cfg0.N) :
    (dats m 0 c).flushed 5 t = ((cfg0.win 5).blk t).view.read (Elt Ideal)
      (combined (m ((c : Thread nD τ).loc main_arg0)) (m ((c : Thread nD τ).loc main_arg1)) (m ((c : Thread nD τ).loc main_arg2))) := by
  rw [Value.flushed5]
  refine funext fun (y : S512x2048.Idx) => ?_
  obtain ⟨r, q, rfl⟩ : ∃ (r : Fin 512) (q : Fin 2048), y = ix2 r q := ⟨y 0, y 1, eq_ix2 y⟩
  show out0_5 (iblk m c 0 t) (iblk m c 1 t) (iblk m c 2 t) (ix2 r q)
    = combined (m ((c : Thread nD τ).loc main_arg0)) (m ((c : Thread nD τ).loc main_arg1)) (m ((c : Thread nD τ).loc main_arg2))
        (((cfg0.win 5).blk t).view.emb (ix2 r q))
  rw [emb5]
  refine (out5_at (iblk m c 0 t) (iblk m c 1 t) (iblk m c 2 t) r q).trans ?_
  rw [xblk m c t r q, bblk m c t 0, bblk m c t 1]
  simp only [xblk m c t r, wblk m c t]
  rfl

/-- An array index is in point t's block iff each coordinate is in the block's range on its axis. -/
theorem mem_blk5 (t : Fin cfg0.N) (i : S16384x2048.Idx) :
    i ∈ ((cfg0.win 5).blk t).view.set ↔ ∀ a : Fin 2, win0_5.index t a * S512x2048.size a ≤ (i a).val
      ∧ (i a).val < win0_5.index t a * S512x2048.size a + S512x2048.size a := by
  show i ∈ ((View.whole main_v0_2).slice (win0_5.rect t)).set ↔ _
  rw [View.set_slice_whole, Rect.mem_set_unit]
  exact Iff.rfl

/-- Every one of the 32 bands of rows is some point's block. -/
theorem onto5 : ∀ q0 : Fin 32, ∃ t : Fin cfg0.N, win0_5.index t = ![q0.val, 0] :=
  (by decide +kernel : ∀ q0 : Fin 32, ∃ t : Fin grid0.N, win0_5.index t = ![q0.val, 0])

/-- The blocks cover the array: row i₀ lies in band i₀ / 512. -/
theorem cover5 (i : S16384x2048.Idx) :
    ∃ t : Fin cfg0.N, (cfg0.win 5).flush t = true ∧ i ∈ ((cfg0.win 5).blk t).view.set := by
  have hi0 : (i 0).val < 16384 := (i 0).isLt
  have hi1 : (i 1).val < 2048 := (i 1).isLt
  obtain ⟨t, ht⟩ := onto5 ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 2048 ≤ (i 1).val ∧ (i 1).val < win0_5.index t (1 : Fin 2) * 2048 + 2048; omega

/-- After the run the third result array is the combined array of the arguments. -/
theorem final5 (c : Dev nD) :
    (dats m 0 c).arrAt 5 cfg0.N
      = combined (m ((c : Thread nD τ).loc main_arg0)) (m ((c : Thread nD τ).loc main_arg1)) (m ((c : Thread nD τ).loc main_arg2)) :=
  (dats m 0 c).arrAt_eq_of_cover 5 _ (fun t _ => flushed5_eq m c t) cover5

end Cert.Route.Arr

end
-- ==== Proof.KernelRun.lean ====
/-
  The kernel's run, with its three result arrays named as functions of its three arguments.

  Every weakly fair execution terminates with the first result branch 0's routed array, the second branch 1's,
  the third the combined array, and the arguments unchanged: the generated run, which names each result array
  as what the grid's write-backs leave, with each of those arrays identified block by block.
-/
import proofs.«133412_g15728170238619_cont_week2b_584_20_alg».proof.Proof.Branch0
import proofs.«133412_g15728170238619_cont_week2b_584_20_alg».proof.Proof.Branch1
import proofs.«133412_g15728170238619_cont_week2b_584_20_alg».proof.Proof.Combined

noncomputable section

namespace Cert.Route.Arr

open Cert.KernelIdeal Cert.KernelIdeal.Gen
open Idealize.ShloMosaic Idealize.ShloMosaic.TcCoe Idealize.SL.Sem Idealize.ShloMosaic.ValueIdx Cert.Route
open Idealize.ShloMosaic.Pipeline (Dat)

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v0_0) = routed 0 (m ((c : Thread nD τ).loc main_arg0)) (m ((c : Thread nD τ).loc main_arg1)) (m ((c : Thread nD τ).loc main_arg2))
      ∧ r.2.mem ((c : Thread nD τ).loc main_v0_1) = routed 1 (m ((c : Thread nD τ).loc main_arg0)) (m ((c : Thread nD τ).loc main_arg1)) (m ((c : Thread nD τ).loc main_arg2))
      ∧ r.2.mem ((c : Thread nD τ).loc main_v0_2) = combined (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c),
      (h c).2.2.1.trans (final5 m c), (h c).2.2.2⟩)
    (Cert.KernelIdeal.Value.run_blocks m ρ)

end Cert.Route.Arr

end
-- ==== Proof.RefRoute.lean ====
/-
  The reference's three results are the routed arrays of the gate.

  Read one operation at a time, the reference computes for every row r and branch j the score
  1 / (1 + exp (−((∑ₖ x[r,k] · w[k,j]) + b[j]))), takes its column j as a vector over the rows, multiplies it by
  the 0/1 indicator of "score > 1/2", stretches the product back along the row and multiplies x by it; the third
  result adds the first two.  That is `routed 0`, `routed 1` and `combined`, index by index.
-/
import proofs.«133412_g15728170238619_cont_week2b_584_20_alg».proof.Proof.Gen.ReferenceIdeal.Read
import proofs.«133412_g15728170238619_cont_week2b_584_20_alg».proof.Proof.Gate

noncomputable section

namespace Cert.Route.Ref

open Cert.ReferenceIdeal Cert.ReferenceIdeal.Gen Cert.ReferenceIdeal.Read
open Idealize.ShloMosaic Idealize.ShloMosaic.ValueIdx Cert.Route

variable (x0 : (⟨S16384x2048, .f32⟩ : BufTy).Contents (Elt Ideal)) (x1 : (⟨S2048x2, .f32⟩ : BufTy).Contents (Elt Ideal))
  (x2 : (⟨S2, .f32⟩ : BufTy).Contents (Elt Ideal))

/-- The product's left operand at output index (r, j) and contraction index k is x[r,k]; -/
theorem lidx_eq (r : Fin 16384) (j : Fin 2) (k : Fin 2048) : lidx_main_v0 (ix2 r j) k = ix2 r k :=
  funext fun a => Fin.ext (by match a with | ⟨0, _⟩ => rfl | ⟨1, _⟩ => rfl)

/-- its right operand is w[k,j]; -/
theorem ridx_eq (r : Fin 16384) (j : Fin 2) (k : Fin 2048) : ridx_main_v0 (ix2 r j) k = ix2 k j :=
  funext fun a => Fin.ext (by match a with | ⟨0, _⟩ => rfl | ⟨1, _⟩ => rfl)

/-- and the bias stretched over the rows reads b[j] at (r, j). -/
theorem bidx_eq (r : Fin 16384) (j : Fin 2) : idx_main_v1 (idx_main_v2 (ix2 r j)) = ix1 j :=
  funext fun a => Fin.ext (by match a with | ⟨0, _⟩ => rfl)

/-- The score array at (r, j) is the score of row r's pre-activation toward branch j. -/
theorem score_at (r : Fin 16384) (j : Fin 2) :
    val_main_v9 (F := Ideal) x0 x1 x2 (ix2 r j)
      = score ((∑ k : Fin 2048, x0 (ix2 r k) * x1 (ix2 k j)) + x2 (ix1 j)) := by
  rw [val_main_v9_apply, val_main_v8_apply, val_main_cst_0_apply, val_main_v7_apply, val_main_v6_apply,
    val_main_cst_apply, val_main_v5_apply, val_main_v4_apply, val_main_v3_apply, val_main_v0_apply,
    val_main_v2_apply, val_main_v1_apply]
  simp only [lidx_eq, ridx_eq, bidx_eq]
  rfl

/-- Column 0 of the score array, as a vector over the rows, reads the score array at (r, 0); -/
theorem col0_idx (r : Fin 16384) : idx_main_v10 (idx_main_v11 (ix1 r)) = ix2 r (0 : Fin 2) :=
  funext fun a => Fin.ext (by
    match a with
    | ⟨0, _⟩ => exact Nat.div_one _
    | ⟨1, _⟩ => rfl)

/-- column 1 reads it at (r, 1). -/
theorem col1_idx (r : Fin 16384) : idx_main_v12 (idx_main_v13 (ix1 r)) = ix2 r (1 : Fin 2) :=
  funext fun a => Fin.ext (by
    match a with
    | ⟨0, _⟩ => exact Nat.div_one _
    | ⟨1, _⟩ => rfl)

/-- Branch 0's factor for row r — the score times the indicator of "score > 1/2" — is the row's weight toward 0. -/
theorem factor0_at (r : Fin 16384) :
    val_main_v20 (F := Ideal) x0 x1 x2 (ix1 r) = rowWeight x0 x1 x2 r 0 := by
  rw [val_main_v20_apply, val_main_v16_apply, val_main_v15_apply, val_main_v14_apply, val_main_cst_1_apply,
    val_main_v11_apply, val_main_v10_apply, col0_idx, score_at]
  rfl

/-- Branch 1's factor for row r is the row's weight toward 1. -/
theorem factor1_at (r : Fin 16384) :
    val_main_v24 (F := Ideal) x0 x1 x2 (ix1 r) = rowWeight x0 x1 x2 r 1 := by
  rw [val_main_v24_apply, val_main_v19_apply, val_main_v18_apply, val_main_v17_apply, val_main_cst_2_apply,
    val_main_v13_apply, val_main_v12_apply, col1_idx, score_at]
  rfl

/-- A factor stretched along the row is read, at (r, c), at row r. -/
theorem stretch0_idx (r : Fin 16384) (c : Fin 2048) : idx_main_v21 (idx_main_v22 (ix2 r c)) = ix1 r :=
  funext fun a => Fin.ext (by match a with | ⟨0, _⟩ => rfl)

theorem stretch1_idx (r : Fin 16384) (c : Fin 2048) : idx_main_v25 (idx_main_v26 (ix2 r c)) = ix1 r :=
  funext fun a => Fin.ext (by match a with | ⟨0, _⟩ => rfl)

/-- The first result is branch 0's routed array. -/
theorem first_eq : val_main_v23 (F := Ideal) x0 x1 x2 = routed 0 x0 x1 x2 := by
  funext i
  obtain ⟨r, c, rfl⟩ : ∃ (r : Fin 16384) (c : Fin 2048), i = ix2 r c := ⟨i 0, i 1, eq_ix2 i⟩
  rw [val_main_v23_apply, val_main_v22_apply, val_main_v21_apply, stretch0_idx, factor0_at]
  rfl

/-- The second result is branch 1's routed array. -/
theorem second_eq : val_main_v27 (F := Ideal) x0 x1 x2 = routed 1 x0 x1 x2 := by
  funext i
  obtain ⟨r, c, rfl⟩ : ∃ (r : Fin 16384) (c : Fin 2048), i = ix2 r c := ⟨i 0, i 1, eq_ix2 i⟩
  rw [val_main_v27_apply, val_main_v26_apply, val_main_v25_apply, stretch1_idx, factor1_at]
  rfl

/-- The third result is the combined array. -/
theorem third_eq : val_main_v28 (F := Ideal) x0 x1 x2 = combined x0 x1 x2 := by
  funext i
  rw [val_main_v28_apply, first_eq, second_eq]
  rfl

end Cert.Route.Ref

end
-- ==== Proof.lean ====
/-
  A two-branch score-weighted router, computed in one pass over tiles of 512 rows, against its plain array form.

  Both programs take x : [16384, 2048], w : [2048, 2] and b : [2] and return three [16384, 2048] arrays.  For a
  row r and a branch j let z = (∑ₖ x[r,k] · w[k,j]) + b[j] and s = 1 / (1 + exp (−z)); the row's weight toward j
  is s when s > 1/2 and 0 otherwise.  The first result is x with every row scaled by its weight toward branch 0,
  the second the same for branch 1, the third their sum.

  On the extended reals the two programs compute these same three arrays.  The tiled program forms z for 512
  rows at a time by a matrix product into a zero accumulator and spells the weight by selection with the exponent
  0 − z; the array program forms all of z by one product and spells the weight as s times a 0/1 indicator with
  the exponent −z.  A matrix product read at an index is the same row-by-column sum however the rows are tiled,
  selection against zero is multiplication by the indicator (s · 1 = s, s · 0 = 0, also at ±∞), and 0 − z = −z;
  so the equality needs no finiteness of the entries, and the precondition is used nowhere.

  The three frames: the tiled program's two are the generated ones; the array program has no kernel, and its
  frame is its run with the results dropped.  The idealization rewrote no operation, so there is nothing to
  preserve.
-/
import proofs.«133412_g15728170238619_cont_week2b_584_20_alg».proof.Defs
import proofs.«133412_g15728170238619_cont_week2b_584_20_alg».proof.Proof.Gen.Kernel
import proofs.«133412_g15728170238619_cont_week2b_584_20_alg».proof.Proof.Gen.Kernel.Skeleton
import proofs.«133412_g15728170238619_cont_week2b_584_20_alg».proof.Proof.Gen.Kernel.Launch
import proofs.«133412_g15728170238619_cont_week2b_584_20_alg».proof.Proof.Gen.Kernel.Points
import proofs.«133412_g15728170238619_cont_week2b_584_20_alg».proof.Proof.Gen.Kernel.Frame
import proofs.«133412_g15728170238619_cont_week2b_584_20_alg».proof.Proof.Gen.KernelIdeal
import proofs.«133412_g15728170238619_cont_week2b_584_20_alg».proof.Proof.Gen.KernelIdeal.Skeleton
import proofs.«133412_g15728170238619_cont_week2b_584_20_alg».proof.Proof.Gen.KernelIdeal.Launch
import proofs.«133412_g15728170238619_cont_week2b_584_20_alg».proof.Proof.Gen.KernelIdeal.Points
import proofs.«133412_g15728170238619_cont_week2b_584_20_alg».proof.Proof.Gen.KernelIdeal.Frame
import proofs.«133412_g15728170238619_cont_week2b_584_20_alg».proof.Proof.Gen.ReferenceIdeal
import proofs.«133412_g15728170238619_cont_week2b_584_20_alg».proof.Proof.Gen.Pre_finite_inputs
import proofs.«133412_g15728170238619_cont_week2b_584_20_alg».proof.Proof.Gen.KernelIdeal.Value
import proofs.«133412_g15728170238619_cont_week2b_584_20_alg».proof.Proof.Gen.ReferenceIdeal.Run
import proofs.«133412_g15728170238619_cont_week2b_584_20_alg».proof.Proof.Gen.ReferenceIdeal.Read
import proofs.«133412_g15728170238619_cont_week2b_584_20_alg».proof.Proof.KernelRun
import proofs.«133412_g15728170238619_cont_week2b_584_20_alg».proof.Proof.RefRoute
import Idealize.ShloMosaic.Adequacy
import Idealize.ShloMosaic.Init

noncomputable section

namespace Cert.Proof

open Idealize.ShloMosaic Idealize.SL.Sem

/-- The tiled program as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The array program runs and leaves its arguments unchanged: its run, with the three results dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- No operation was rewritten when the tiled program was read on the extended reals. -/
theorem preserves : Cert.preserves_Kernel_KernelIdeal := trivial

/-- From arguments that agree, the tiled program ends with the two routed arrays and the combined array of its
    arguments, and the array program with the same three functions of its own arguments. -/
theorem algebraic : Cert.algebraic_KernelIdeal_ReferenceIdeal := by
  intro m ρ m' ρ' _ hagree
  refine ⟨_, _, _, Cert.Route.Arr.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v23_eq, Cert.Route.Ref.first_eq,
      (hagree c).1, (hagree c).2.1, (hagree c).2.2]
  · rw [(h c).2.1, Cert.ReferenceIdeal.Read.val_main_v27_eq, Cert.Route.Ref.second_eq,
      (hagree c).1, (hagree c).2.1, (hagree c).2.2]
  · rw [(h c).2.2.1, Cert.ReferenceIdeal.Read.val_main_v28_eq, Cert.Route.Ref.third_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
